-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128x128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S5000x128 : Shape := ⟨2, ![5000, 128]⟩
abbrev S_ : Shape := ⟨0, ![]⟩
abbrev S850000x1 : Shape := ⟨2, ![850000, 1]⟩
abbrev S850000x128 : Shape := ⟨2, ![850000, 128]⟩

abbrev nBuf : Space → Nat
  | .hbm => 170
  | .vmem => 23
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128x128, .f32⟩
  | 5 => ⟨S50000, .i32⟩
  | 6 => ⟨S1x800000, .i32⟩
  | 7 => ⟨S800000, .i32⟩
  | 8 => ⟨S850000, .i32⟩
  | 9 => ⟨S1x800000, .i32⟩
  | 10 => ⟨S800000, .i32⟩
  | 11 => ⟨S850000, .i32⟩
  | 12 => ⟨S50000x128, .f32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S850000x1, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S50000x128, .f32⟩
  | 65 => ⟨S50000x128, .f32⟩
  | 66 => ⟨S_, .f32⟩
  | 67 => ⟨S850000, .f32⟩
  | 68 => ⟨S_, .f32⟩
  | 69 => ⟨S50000, .f32⟩
  | 70 => ⟨S850000x1, .i32⟩
  | 71 => ⟨S50000, .f32⟩
  | 72 => ⟨S_, .f32⟩
  | 73 => ⟨S50000, .f32⟩
  | 74 => ⟨S50000, .i1⟩
  | 75 => ⟨S_, .f32⟩
  | 76 => ⟨S50000, .f32⟩
  | 77 => ⟨S50000, .f32⟩
  | 78 => ⟨S_, .f32⟩
  | 79 => ⟨S_, .f32⟩
  | 80 => ⟨S50000, .f32⟩
  | 81 => ⟨S50000, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S850000, .f32⟩
  | 101 => ⟨S850000x1, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x128, .f32⟩
  | 111 => ⟨S850000x128, .f32⟩
  | 112 => ⟨S850000x128, .f32⟩
  | 113 => ⟨S_, .f32⟩
  | 114 => ⟨S50000x128, .f32⟩
  | 115 => ⟨S850000x1, .i32⟩
  | 116 => ⟨S50000x128, .f32⟩
  | 117 => ⟨S50000x128, .f32⟩
  | 118 => ⟨S50000x128, .f32⟩
  | 119 => ⟨S_, .f32⟩
  | 120 => ⟨S850000, .f32⟩
  | 121 => ⟨S_, .f32⟩
  | 122 => ⟨S50000, .f32⟩
  | 123 => ⟨S850000x1, .i32⟩
  | 124 => ⟨S50000, .f32⟩
  | 125 => ⟨S_, .f32⟩
  | 126 => ⟨S50000, .f32⟩
  | 127 => ⟨S50000, .i1⟩
  | _ => ⟨S50000x128, .f32⟩

abbrev hbmTy0_1 (i : Nat) : BufTy := match i % 128 with
  | 0 => ⟨S_, .f32⟩
  | 1 => ⟨S50000, .f32⟩
  | 2 => ⟨S50000, .f32⟩
  | 3 => ⟨S_, .f32⟩
  | 4 => ⟨S_, .f32⟩
  | 5 => ⟨S50000, .f32⟩
  | 6 => ⟨S50000, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S850000, .f32⟩
  | 25 => ⟨S850000, .f32⟩
  | 26 => ⟨S850000x1, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000x128, .f32⟩
  | 36 => ⟨S850000x128, .f32⟩
  | 37 => ⟨S850000x128, .f32⟩
  | 38 => ⟨S_, .f32⟩
  | 39 => ⟨S50000x128, .f32⟩
  | 40 => ⟨S850000x1, .i32⟩
  | 41 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_call1_v0 : Ref sig .tc := ⟨.hbm, 79, rfl⟩
abbrev main_call1_v1 : Ref sig .tc := ⟨.hbm, 80, rfl⟩
abbrev main_v55 : Ref sig .tc := ⟨.hbm, 81, rfl⟩
abbrev main_c_15 : Ref sig .tc := ⟨.hbm, 82, rfl⟩
abbrev main_v56 : Ref sig .tc := ⟨.hbm, 83, rfl⟩
abbrev main_v57 : Ref sig .tc := ⟨.hbm, 84, rfl⟩
abbrev main_c_16 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_17 : Ref sig .tc := ⟨.hbm, 91, rfl⟩
abbrev main_v63 : Ref sig .tc := ⟨.hbm, 92, rfl⟩
abbrev main_v64 : Ref sig .tc := ⟨.hbm, 93, rfl⟩
abbrev main_c_18 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_19 : Ref sig .tc := ⟨.hbm, 102, rfl⟩
abbrev main_v72 : Ref sig .tc := ⟨.hbm, 103, rfl⟩
abbrev main_v73 : Ref sig .tc := ⟨.hbm, 104, rfl⟩
abbrev main_c_20 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_21 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_22 : Ref sig .tc := ⟨.hbm, 119, rfl⟩
abbrev main_v86 : Ref sig .tc := ⟨.hbm, 120, rfl⟩
abbrev main_cst_23 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_24 : Ref sig .tc := ⟨.hbm, 125, rfl⟩
abbrev main_v90 : Ref sig .tc := ⟨.hbm, 126, rfl⟩
abbrev main_v91 : Ref sig .tc := ⟨.hbm, 127, rfl⟩
abbrev main_cst_25 : Ref sig .tc := ⟨.hbm, 128, rfl⟩
abbrev main_v92 : Ref sig .tc := ⟨.hbm, 129, rfl⟩
abbrev main_v93 : Ref sig .tc := ⟨.hbm, 130, rfl⟩
abbrev main_cst_26 : Ref sig .tc := ⟨.hbm, 131, rfl⟩
abbrev main_call2_v0 : Ref sig .tc := ⟨.hbm, 132, rfl⟩
abbrev main_call2_v1 : Ref sig .tc := ⟨.hbm, 133, rfl⟩
abbrev main_v94 : Ref sig .tc := ⟨.hbm, 134, rfl⟩
abbrev main_c_27 : Ref sig .tc := ⟨.hbm, 135, rfl⟩
abbrev main_v95 : Ref sig .tc := ⟨.hbm, 136, rfl⟩
abbrev main_v96 : Ref sig .tc := ⟨.hbm, 137, rfl⟩
abbrev main_c_28 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_29 : Ref sig .tc := ⟨.hbm, 144, rfl⟩
abbrev main_v102 : Ref sig .tc := ⟨.hbm, 145, rfl⟩
abbrev main_v103 : Ref sig .tc := ⟨.hbm, 146, rfl⟩
abbrev main_c_30 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_31 : Ref sig .tc := ⟨.hbm, 155, rfl⟩
abbrev main_v111 : Ref sig .tc := ⟨.hbm, 156, rfl⟩
abbrev main_v112 : Ref sig .tc := ⟨.hbm, 157, rfl⟩
abbrev main_c_32 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_33 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S5000x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v84) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128x128, .f32⟩
  | 5 => ⟨S50000, .i32⟩
  | 6 => ⟨S1x800000, .i32⟩
  | 7 => ⟨S800000, .i32⟩
  | 8 => ⟨S850000, .i32⟩
  | 9 => ⟨S1x800000, .i32⟩
  | 10 => ⟨S800000, .i32⟩
  | 11 => ⟨S850000, .i32⟩
  | 12 => ⟨S50000x128, .f32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S850000x1, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x128, .f32⟩
  | 69 => ⟨S_, .f32⟩
  | 70 => ⟨S850000, .f32⟩
  | 71 => ⟨S_, .f32⟩
  | 72 => ⟨S50000, .f32⟩
  | 73 => ⟨S850000x1, .i32⟩
  | 74 => ⟨S50000, .f32⟩
  | 75 => ⟨S_, .f32⟩
  | 76 => ⟨S50000, .f32⟩
  | 77 => ⟨S50000, .i1⟩
  | 78 => ⟨S_, .f32⟩
  | 79 => ⟨S50000, .f32⟩
  | 80 => ⟨S50000, .f32⟩
  | 81 => ⟨S_, .f32⟩
  | 82 => ⟨S_, .f32⟩
  | 83 => ⟨S50000, .f32⟩
  | 84 => ⟨S50000, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S850000, .f32⟩
  | 104 => ⟨S850000x1, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x128, .f32⟩
  | 115 => ⟨S850000x128, .f32⟩
  | 116 => ⟨S_, .f32⟩
  | 117 => ⟨S50000x128, .f32⟩
  | 118 => ⟨S850000x1, .i32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S_, .f32⟩
  | 126 => ⟨S850000, .f32⟩
  | 127 => ⟨S_, .f32⟩
  | _ => ⟨S50000x128, .f32⟩

abbrev hbmTy0_1 (i : Nat) : BufTy := match i % 128 with
  | 0 => ⟨S50000, .f32⟩
  | 1 => ⟨S850000x1, .i32⟩
  | 2 => ⟨S50000, .f32⟩
  | 3 => ⟨S_, .f32⟩
  | 4 => ⟨S50000, .f32⟩
  | 5 => ⟨S50000, .i1⟩
  | 6 => ⟨S_, .f32⟩
  | 7 => ⟨S50000, .f32⟩
  | 8 => ⟨S50000, .f32⟩
  | 9 => ⟨S_, .f32⟩
  | 10 => ⟨S_, .f32⟩
  | 11 => ⟨S50000, .f32⟩
  | 12 => ⟨S50000, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S850000, .f32⟩
  | 32 => ⟨S850000x1, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000x128, .f32⟩
  | 42 => ⟨S850000x128, .f32⟩
  | 43 => ⟨S850000x128, .f32⟩
  | 44 => ⟨S_, .f32⟩
  | 45 => ⟨S50000x128, .f32⟩
  | 46 => ⟨S850000x1, .i32⟩
  | 47 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_call1_v0 : Ref sig .tc := ⟨.hbm, 82, rfl⟩
abbrev main_call1_v1 : Ref sig .tc := ⟨.hbm, 83, rfl⟩
abbrev main_v57 : Ref sig .tc := ⟨.hbm, 84, rfl⟩
abbrev main_c_16 : Ref sig .tc := ⟨.hbm, 85, rfl⟩
abbrev main_v58 : Ref sig .tc := ⟨.hbm, 86, rfl⟩
abbrev main_v59 : Ref sig .tc := ⟨.hbm, 87, rfl⟩
abbrev main_c_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_18 : Ref sig .tc := ⟨.hbm, 94, rfl⟩
abbrev main_v65 : Ref sig .tc := ⟨.hbm, 95, rfl⟩
abbrev main_v66 : Ref sig .tc := ⟨.hbm, 96, rfl⟩
abbrev main_c_19 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_20 : Ref sig .tc := ⟨.hbm, 105, rfl⟩
abbrev main_v74 : Ref sig .tc := ⟨.hbm, 106, rfl⟩
abbrev main_v75 : Ref sig .tc := ⟨.hbm, 107, rfl⟩
abbrev main_c_21 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_22 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_23 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_24 : Ref sig .tc := ⟨.hbm, 125, rfl⟩
abbrev main_v90 : Ref sig .tc := ⟨.hbm, 126, rfl⟩
abbrev main_cst_25 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_26 : Ref sig .tc := ⟨.hbm, 131, rfl⟩
abbrev main_v94 : Ref sig .tc := ⟨.hbm, 132, rfl⟩
abbrev main_v95 : Ref sig .tc := ⟨.hbm, 133, rfl⟩
abbrev main_cst_27 : Ref sig .tc := ⟨.hbm, 134, rfl⟩
abbrev main_v96 : Ref sig .tc := ⟨.hbm, 135, rfl⟩
abbrev main_v97 : Ref sig .tc := ⟨.hbm, 136, rfl⟩
abbrev main_cst_28 : Ref sig .tc := ⟨.hbm, 137, rfl⟩
abbrev main_call2_v0 : Ref sig .tc := ⟨.hbm, 138, rfl⟩
abbrev main_call2_v1 : Ref sig .tc := ⟨.hbm, 139, rfl⟩
abbrev main_v98 : Ref sig .tc := ⟨.hbm, 140, rfl⟩
abbrev main_c_29 : Ref sig .tc := ⟨.hbm, 141, rfl⟩
abbrev main_v99 : Ref sig .tc := ⟨.hbm, 142, rfl⟩
abbrev main_v100 : Ref sig .tc := ⟨.hbm, 143, rfl⟩
abbrev main_c_30 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_31 : Ref sig .tc := ⟨.hbm, 150, rfl⟩
abbrev main_v106 : Ref sig .tc := ⟨.hbm, 151, rfl⟩
abbrev main_v107 : Ref sig .tc := ⟨.hbm, 152, rfl⟩
abbrev main_c_32 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_33 : Ref sig .tc := ⟨.hbm, 161, rfl⟩
abbrev main_v115 : Ref sig .tc := ⟨.hbm, 162, rfl⟩
abbrev main_v116 : Ref sig .tc := ⟨.hbm, 163, rfl⟩
abbrev main_c_34 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_35 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Layer.lean ====
/-
  The graph convolution both programs apply three times, as one function of the edge list and the projected features.

  The edge list has 800000 edges between 50000 nodes; one self-loop per node is appended, giving 850000 (row, col)
  pairs. With deg(n) the number of pairs whose row is n and dinv(n) = deg(n)^(-1/2) where deg(n) > 0, else 0, a layer
  sends an [50000, 128] array xw to

      out(n, :) = Σ_{e : row(e) = n} dinv(row e) · dinv(col e) · xw(col e, :).

  Between layers the activation is 5 · tanh, and the projection before each layer is a matrix product with a
  [128, 128] weight. Nothing below opens these functions: the two programs apply the same ones, and only the
  matrix products and the activations are computed by different means.
-/
import proofs.«101457_j58325655879922_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- The row ids: entry e < 800000 is edge_index[0, e]; entry 800000 + n is n (the self-loop of node n). -/
def rows (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The column ids: entry e < 800000 is edge_index[1, e]; entry 800000 + n is n. -/
def cols (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- Ids as a column of start positions, a negative id moved up once by the number of nodes: id < 0 ? id + 50000 : id. -/
def wrap (ids : (⟨S850000, .i32⟩ : BufTy).Contents (Elt F)) : (⟨S850000x1, .i32⟩ : BufTy).Contents (Elt F) :=
  broadcastInDim S850000x1 ![0] bcast_S850000_S850000x1_0 (select (cmpi .slt ids (broadcastInDim S850000 ![] bcast_S_S850000 (constantI S_ 32 0#32))) (addi ids (broadcastInDim S850000 ![] bcast_S_S850000 (constantI S_ 32 50000#32))) ids)

/-- deg(n): the number of pairs whose row is n, as a sum of ones scattered to the rows. -/
def deg (row : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 row) (broadcastInDim S850000 ![] bcast_S_S850000 (constant S_ .f32 0x3F800000#32))

/-- dinv(n) = deg(n)^(-1/2) where deg(n) > 0, and 0 elsewhere. -/
def dinv (row : (⟨S850000, .i32⟩ : BufTy).Contents (Elt F)) : (⟨S50000, .f32⟩ : BufTy).Contents (Elt F) :=
  select (cmpf .ogt (deg row) (broadcastInDim S50000 ![] bcast_S_S50000 (constant S_ .f32 0x00000000#32))) (Host.powf (deg row) (broadcastInDim S50000 ![] bcast_S_S50000 (constant S_ .f32 0xBF000000#32))) (broadcastInDim S50000 ![] bcast_S_S50000 (id (constant S_ .f32 0x00000000#32)))

/-- The weight of pair e: dinv(row e) · dinv(col e). -/
def norm (row col : (⟨S850000, .i32⟩ : BufTy).Contents (Elt F)) : (⟨S850000, .f32⟩ : BufTy).Contents (Elt F) :=
  mulf (Host.gather gather_S50000_S850000x1_S850000_n_0_n_n_0_1_1 (dinv row) (wrap row)) (Host.gather gather_S50000_S850000x1_S850000_n_0_n_n_0_1_1 (dinv row) (wrap col))

/-- One layer: row n of the result is the sum, over the pairs e whose row is n, of norm(e) times row col(e) of xw. -/
def layer (row col : (⟨S850000, .i32⟩ : BufTy).Contents (Elt F)) (xw : (⟨S50000x128, .f32⟩ : BufTy).Contents (Elt F)) :
    (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 row) (mulf (broadcastInDim S850000x128 ![0, 1] bcast_S850000x1_S850000x128_0_1 (broadcastInDim S850000x1 ![0] bcast_S850000_S850000x1_0 (norm row col))) (Host.gather gather_S50000x128_S850000x1_S850000x128_1_0_n_n_0_1_1128 xw (wrap col)))

/-- The activation between layers: 5 · tanh, entry by entry. -/
def act (h : (⟨S50000x128, .f32⟩ : BufTy).Contents (Elt F)) : (⟨S50000x128, .f32⟩ : BufTy).Contents (Elt F) :=
  mulf (Host.tanh h) (broadcastInDim S50000x128 ![] bcast_S_S50000x128 (constant S_ .f32 0x40A00000#32))

/-- The projection: the [50000, 128] features times a [128, 128] weight. -/
def proj (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w

/-- The features after the first layer, before its activation. -/
def hidden1 (x : (⟨S50000x128, .f32⟩ : BufTy).Contents (Elt F)) (e : (⟨S2x800000, .i32⟩ : BufTy).Contents (Elt F))
    (w1 : (⟨S128x128, .f32⟩ : BufTy).Contents (Elt F)) : (⟨S50000x128, .f32⟩ : BufTy).Contents (Elt F) :=
  layer (rows e) (cols e) (proj x w1)

/-- The features after the second layer, before its activation. -/
def hidden2 (x : (⟨S50000x128, .f32⟩ : BufTy).Contents (Elt F)) (e : (⟨S2x800000, .i32⟩ : BufTy).Contents (Elt F))
    (w1 w2 : (⟨S128x128, .f32⟩ : BufTy).Contents (Elt F)) : (⟨S50000x128, .f32⟩ : BufTy).Contents (Elt F) :=
  layer (rows e) (cols e) (proj (act (hidden1 x e w1)) w2)

/-- The three layers: project, convolve, activate; project, convolve, activate; project, convolve. -/
def net (x : (⟨S50000x128, .f32⟩ : BufTy).Contents (Elt F)) (e : (⟨S2x800000, .i32⟩ : BufTy).Contents (Elt F))
    (w1 w2 w3 : (⟨S128x128, .f32⟩ : BufTy).Contents (Elt F)) : (⟨S50000x128, .f32⟩ : BufTy).Contents (Elt F) :=
  layer (rows e) (cols e) (proj (act (hidden2 x e w1 w2)) w3)

end Cert.Gcn

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibHostDot.lean ====
/-
  A plain matrix product on the host, read at an index, on the extended reals.

  For dimension numbers that contract the left operand's second axis against the right operand's first — an [M, K] array
  times a [K, P] array — the host's product read at row `p` and column `q` is `Σ k, l (p, k) · r (k, q)` over the K
  contraction coordinates: the sum over the contraction's index set, which has one axis, re-indexed through that axis's
  coordinate. The two facts about the free axes are taken as hypotheses, since for given dimension numbers they hold by
  computation.
-/
import Idealize.ShloMosaic.PureOps.Ideal.Laws
import Idealize.ShloMosaic.Lib.ValueIdx

noncomputable section

open scoped BigOperators

namespace Cert.LibHostDot

open Idealize.ShloMosaic Idealize.ShloMosaic.ValueIdx

/-- The host's matrix product at (p, q) is the sum over the contraction coordinate of the left operand at (p, k) times the
    right operand at (k, q). -/
theorem dotGeneral_plain_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    Host.dotGeneral D prec l r (ix2 p q) = ∑ k : Fin K, l (ix2 p k) * r (ix2 k q) := by
  simp only [Host.dotGeneral]
  rw [Ideal.dotGeneral_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibHostDot

end
-- ==== Proof.ProjBlock.lean ====
/-
  A row tile of a matrix product is the product of the row tile.

  The kernel computes x · W tile by tile: grid point t holds rows 5000 t … 5000 t + 4999 of x and the whole of W, and
  writes the [5000, 128] product of the two (after a change of float format on both, which is the identity on the
  extended reals) into a zero accumulator. Entry (p, q) of that tile is Σ_k x(5000 t + p, k) · W(k, q), which is entry
  (5000 t + p, q) of the whole product x · W. No rearrangement of the sum is involved: both sides contract the same 128
  coordinates in the same order.
-/
import proofs.«101457_j58325655879922_1_alg».proof.Proof.Layer
import proofs.«101457_j58325655879922_1_alg».proof.Proof.LibPlainDot
import proofs.«101457_j58325655879922_1_alg».proof.Proof.LibHostDot
import proofs.«101457_j58325655879922_1_alg».proof.Proof.Gen.KernelIdeal
import Idealize.ShloMosaic.Lib.ValueIdx
import Idealize.ShloMosaic.Lib.Pipeline.Value

noncomputable section

open scoped BigOperators

namespace Cert.Gcn

open Idealize.ShloMosaic Idealize.ShloMosaic.ValueIdx

/-! ## The whole product at an index -/

theorem whole_lhs0 (i : Cert.ReferenceIdeal.S50000x128.Idx) (c : Cert.ReferenceIdeal.dot_S50000x128_S128x128_S50000x128_1_0_0_1_n_n.contr.Idx) :
    (Cert.ReferenceIdeal.dot_S50000x128_S128x128_S50000x128_1_0_0_1_n_n.lhsIdx i c 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide),
    dif_pos (show (0 : Fin Cert.ReferenceIdeal.S50000x128.rank) ∈ Cert.ReferenceIdeal.dot_S50000x128_S128x128_S50000x128_1_0_0_1_n_n.lhsNonContracting by decide)]
  rfl

theorem whole_rhs1 (i : Cert.ReferenceIdeal.S50000x128.Idx) (c : Cert.ReferenceIdeal.dot_S50000x128_S128x128_S50000x128_1_0_0_1_n_n.contr.Idx) :
    (Cert.ReferenceIdeal.dot_S50000x128_S128x128_S50000x128_1_0_0_1_n_n.rhsIdx i c 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide),
    dif_pos (show (1 : Fin Cert.ReferenceIdeal.S128x128.rank) ∈ Cert.ReferenceIdeal.dot_S50000x128_S128x128_S50000x128_1_0_0_1_n_n.rhsNonContracting by decide)]
  rfl

/-- Entry (P, q) of the whole product is Σ_k x(P, k) · W(k, q). -/
theorem proj_apply (x : FVec Ideal Cert.ReferenceIdeal.S50000x128 .f32) (w : FVec Ideal Cert.ReferenceIdeal.S128x128 .f32)
    (P : Fin 50000) (q : Fin 128) :
    proj (F := Ideal) x w (ix2 P q) = ∑ k : Fin 128, x (ix2 P k) * w (ix2 k q) := by
  unfold proj
  exact Cert.LibHostDot.dotGeneral_plain_apply Cert.ReferenceIdeal.dot_S50000x128_S128x128_S50000x128_1_0_0_1_n_n rfl rfl
    whole_lhs0 whole_rhs1 rfl rfl none x w P q

/-! ## A tile's product at an index -/

theorem tile_lhs0 (i : Cert.KernelIdeal.S5000x128.Idx) (c : Cert.KernelIdeal.dot_S5000x128_S128x128_S5000x128_1_0_0_1_n_n.contr.Idx) :
    (Cert.KernelIdeal.dot_S5000x128_S128x128_S5000x128_1_0_0_1_n_n.lhsIdx i c 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide),
    dif_pos (show (0 : Fin Cert.KernelIdeal.S5000x128.rank) ∈ Cert.KernelIdeal.dot_S5000x128_S128x128_S5000x128_1_0_0_1_n_n.lhsNonContracting by decide)]
  rfl

theorem tile_rhs1 (i : Cert.KernelIdeal.S5000x128.Idx) (c : Cert.KernelIdeal.dot_S5000x128_S128x128_S5000x128_1_0_0_1_n_n.contr.Idx) :
    (Cert.KernelIdeal.dot_S5000x128_S128x128_S5000x128_1_0_0_1_n_n.rhsIdx i c 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide),
    dif_pos (show (1 : Fin Cert.KernelIdeal.S128x128.rank) ∈ Cert.KernelIdeal.dot_S5000x128_S128x128_S5000x128_1_0_0_1_n_n.rhsNonContracting by decide)]
  rfl

/-- Entry (p, q) of a tile's product into a zero accumulator is Σ_k a(p, k) · b(k, q). -/
theorem tile_apply (a : FVec Ideal Cert.KernelIdeal.S5000x128 .bf16) (b : FVec Ideal Cert.KernelIdeal.S128x128 .bf16)
    (p : Fin 5000) (q : Fin 128) :
    matmul Cert.KernelIdeal.dot_S5000x128_S128x128_S5000x128_1_0_0_1_n_n none a b (constant Cert.KernelIdeal.S5000x128 .f32 0x00000000#32) (ix2 p q)
      = ∑ k : Fin 128, a (ix2 p k) * b (ix2 k q) :=
  Cert.LibPlainDot.matmul_zero_apply Cert.KernelIdeal.dot_S5000x128_S128x128_S5000x128_1_0_0_1_n_n rfl rfl
    tile_lhs0 tile_rhs1 rfl rfl none a b p q

/-- Row 5000 t + p of the [50000, 128] arrays. -/
abbrev rowAt (t : ℕ) (ht : t < 10) (p : Fin 5000) : Fin 50000 := ⟨t * 5000 + p.val, by have := p.isLt; omega⟩

/-- A tile's product is the tile of the whole product: if a holds rows 5000 t … of x and b is W, then entry (p, q) of
    a · b is entry (5000 t + p, q) of x · W. -/
theorem tile_eq_proj (x : FVec Ideal Cert.ReferenceIdeal.S50000x128 .f32) (w : FVec Ideal Cert.ReferenceIdeal.S128x128 .f32)
    (a : FVec Ideal Cert.KernelIdeal.S5000x128 .bf16) (b : FVec Ideal Cert.KernelIdeal.S128x128 .bf16)
    (t : ℕ) (ht : t < 10)
    (ha : ∀ (p : Fin 5000) (k : Fin 128), a (ix2 p k) = x (ix2 (rowAt t ht p) k))
    (hb : ∀ (k q : Fin 128), b (ix2 k q) = w (ix2 k q))
    (p : Fin 5000) (q : Fin 128) :
    matmul Cert.KernelIdeal.dot_S5000x128_S128x128_S5000x128_1_0_0_1_n_n none a b (constant Cert.KernelIdeal.S5000x128 .f32 0x00000000#32) (ix2 p q)
      = proj (F := Ideal) x w (ix2 (rowAt t ht p) q) := by
  rw [tile_apply, proj_apply]
  exact Finset.sum_congr rfl fun k _ => by rw [ha, hb]

end Cert.Gcn

end
-- ==== Proof.Region0.lean ====
/-
  Region 0: the projection x · W written tile by tile is the whole product.

  Grid point t fetches rows 5000 t … 5000 t + 4999 of the features and the whole weight, and writes back the tile's
  product as rows 5000 t … of the output array. The ten tiles cover the 50000 rows, so after the region the output
  array holds the whole product of the two arrays as the region found them.
-/
import proofs.«101457_j58325655879922_1_alg».proof.Proof.ProjBlock
import proofs.«101457_j58325655879922_1_alg».proof.Proof.Gen.KernelIdeal.Frame
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the features' and the output's block row is the point, every other block index is 0. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value is the tile's product into a zero accumulator, of its two loaded blocks. -/
theorem pay_eq (x0 : Vec Ideal S5000x128 .f32) (x1 : Vec Ideal S128x128 .f32) (p : Fin 5000) (q : Fin 128) :
    k0_pay1 (F := Ideal) x0 x1 (ix2 p q)
      = matmul dot_S5000x128_S128x128_S5000x128_1_0_0_1_n_n none (truncf .bf16 x0 bitsLt_bf16_f32) (truncf .bf16 x1 bitsLt_bf16_f32)
          (constant S5000x128 .f32 0x00000000#32) (ix2 p q) := by
  rfl

/-- What point t writes back is block t of the whole product. -/
theorem flushed_eq (c : Dev nD) (t : Fin cfg0.N) :
    (dat0 V c).flushed 2 t
      = ((cfg0.win 2).blk t).view.read (Elt Ideal) (Cert.Gcn.proj (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx t
  have ht : t.val < 10 := lt_of_lt_of_eq t.isLt N_0
  funext j
  obtain ⟨p, q, rfl⟩ : ∃ (p : Fin 5000) (q : Fin 128), j = ix2 p q := ⟨j 0, j 1, eq_ix2 j⟩
  have hemb : ((cfg0.win 2).blk t).view.emb (ix2 p q) = ix2 (Cert.Gcn.rowAt t.val ht p) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (iblk0 V c 0 t) (iblk0 V c 1 t) (ix2 p q)
    = Cert.Gcn.proj (F := Ideal) (V c main_arg0) (V c main_arg2) (((cfg0.win 2).blk t).view.emb (ix2 p q))
  rw [hemb, pay_eq]
  refine Cert.Gcn.tile_eq_proj (V c main_arg0) (V c main_arg2) _ _ t.val ht ?_ ?_ p q
  · intro p k
    show V c main_arg0 (((cfg0.win 0).blk t).view.emb (ix2 p k)) = V c main_arg0 (ix2 (Cert.Gcn.rowAt t.val ht p) k)
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c main_arg2 (((cfg0.win 1).blk t).view.emb (ix2 k q)) = V c main_arg2 (ix2 k q)
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v7).slice (win0_2.rect t)).set ↔ _
  rw [View.set_slice_whole, Rect.mem_set_unit]
  exact Iff.rfl

/-- Every row r of the output array is in the block of point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  obtain ⟨e0, e1, e2, e3, e4, e5⟩ := idx ⟨(i 0).val / 5000, hN⟩
  have e4' : win0_2.index ⟨(i 0).val / 5000, hN⟩ (0 : Fin 2) = (i 0).val / 5000 := e4
  refine ⟨⟨(i 0).val / 5000, hN⟩, flush0_2 _, ?_⟩
  rw [mem_blk]
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; omega

/-- After the region the output array holds the whole product of the features and the weight as the region found them. -/
theorem arr (c : Dev nD) :
    (dat0 V c).arrAt 2 cfg0.N = Cert.Gcn.proj (F := Ideal) (V c main_arg0) (V c main_arg2) :=
  (dat0 V c).arrAt_eq_of_cover 2 _ (fun t _ => flushed_eq V c t) cover

end Cert.KernelIdeal.Region0

end
-- ==== Proof.ActBlock.lean ====
/-
  A row tile of the activation is the activation of the row tile.

  The activation 5 · tanh acts entry by entry, so the kernel's tile holding rows 5000 t … of an array h, passed through
  tanh and multiplied by the splat 5, is rows 5000 t … of the activation of h. Both programs use the same tanh on the
  extended reals and the same word for 5.
-/
import proofs.«101457_j58325655879922_1_alg».proof.Proof.ProjBlock

noncomputable section

namespace Cert.Gcn

open Idealize.ShloMosaic Idealize.ShloMosaic.ValueIdx

/-- The activation at an index: 5 · tanh of the entry. -/
theorem act_apply (h : FVec Ideal Cert.ReferenceIdeal.S50000x128 .f32) (i : Cert.ReferenceIdeal.S50000x128.Idx) :
    act (F := Ideal) h i = Ideal.tanh (h i) * Ideal.ofBits .f32 0x40A00000#32 := rfl

/-- If a holds rows 5000 t … of h, then entry (p, q) of the tile's activation is entry (5000 t + p, q) of the
    activation of h. -/
theorem tile_eq_act (h : FVec Ideal Cert.ReferenceIdeal.S50000x128 .f32) (a : FVec Ideal Cert.KernelIdeal.S5000x128 .f32)
    (t : ℕ) (ht : t < 10) (ha : ∀ (p : Fin 5000) (k : Fin 128), a (ix2 p k) = h (ix2 (rowAt t ht p) k))
    (hS : Cert.KernelIdeal.S5000x128.ShapeCasts Cert.KernelIdeal.S5000x128) (p : Fin 5000) (q : Fin 128) :
    mulf (F := Ideal) (tanh (shapeCast Cert.KernelIdeal.S5000x128 a hS))
        (broadcast Cert.KernelIdeal.S5000x128 (Scalar.ofBits .f32 0x40A00000#32)) (ix2 p q)
      = act (F := Ideal) h (ix2 (rowAt t ht p) q) := by
  rw [shapeCast_self, act_apply, ← ha]
  rfl

end Cert.Gcn

end
-- ==== Proof.Region1.lean ====
/-
  Region 1: the activation 5 · tanh written tile by tile is the activation of the whole array.

  Grid point t fetches rows 5000 t … 5000 t + 4999 of its input and writes back their activation as the same rows of
  the output array. The ten tiles cover the 50000 rows, so after the region the output array holds the activation of the
  input array as the region found it.
-/
import proofs.«101457_j58325655879922_1_alg».proof.Proof.ActBlock
import proofs.«101457_j58325655879922_1_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's and the output's block row is the point, the block column is 0. -/
theorem idx : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The body's stored value is 5 · tanh of its loaded block, entry by entry. -/
theorem pay_eq (x0 : Vec Ideal S5000x128 .f32) (p : Fin 5000) (q : Fin 128) :
    k1_pay1 (F := Ideal) x0 (ix2 p q)
      = mulf (tanh (shapeCast S5000x128 x0 shapeCasts_S5000x128_S5000x128)) (broadcast S5000x128 (Scalar.ofBits .f32 0x40A00000#32)) (ix2 p q) := by
  rfl

/-- What point t writes back is block t of the activation of the input array. -/
theorem flushed_eq (c : Dev nD) (t : Fin cfg1.N) :
    (dat1 V c).flushed 1 t
      = ((cfg1.win 1).blk t).view.read (Elt Ideal) (Cert.Gcn.act (F := Ideal) (V c main_v44)) := by
  show (cfg1.win 1).cut (grid1.coords t) ((dat1 V c).after 1 t) = _
  rw [after1_1]
  unfold out1_1
  rw [View.canon_unit_zero hz]
  simp only [View.ld_unit_zero (S := S5000x128) hz]
  obtain ⟨e0, e1, e2, e3⟩ := idx t
  have ht : t.val < 10 := lt_of_lt_of_eq t.isLt N_1
  funext j
  obtain ⟨p, q, rfl⟩ : ∃ (p : Fin 5000) (q : Fin 128), j = ix2 p q := ⟨j 0, j 1, eq_ix2 j⟩
  have hemb : ((cfg1.win 1).blk t).view.emb (ix2 p q) = ix2 (Cert.Gcn.rowAt t.val ht p) q := by
    funext a; apply Fin.ext
    match a with
    | ⟨0, _⟩ => show win1_1.index t (0 : Fin 2) * 5000 + 1 * p.val = t.val * 5000 + p.val; omega
    | ⟨1, _⟩ => show win1_1.index t (1 : Fin 2) * 128 + 1 * q.val = q.val; omega
  show k1_pay1 (iblk1 V c 0 t) (ix2 p q)
    = Cert.Gcn.act (F := Ideal) (V c main_v44) (((cfg1.win 1).blk t).view.emb (ix2 p q))
  rw [hemb, pay_eq]
  refine Cert.Gcn.tile_eq_act (V c main_v44) _ t.val ht ?_ shapeCasts_S5000x128_S5000x128 p q
  intro p k
  show V c main_v44 (((cfg1.win 0).blk t).view.emb (ix2 p k)) = V c main_v44 (ix2 (Cert.Gcn.rowAt t.val ht p) k)
  refine congrArg _ ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- An index of the output array is in point t's block iff each coordinate is in the block's range on its axis. -/
theorem mem_blk (t : Fin cfg1.N) (i : S50000x128.Idx) :
    i ∈ ((cfg1.win 1).blk t).view.set ↔ ∀ a : Fin 2, win1_1.index t a * S5000x128.size a ≤ (i a).val ∧ (i a).val < win1_1.index t a * S5000x128.size a + S5000x128.size a := by
  show i ∈ ((View.whole main_v45).slice (win1_1.rect t)).set ↔ _
  rw [View.set_slice_whole, Rect.mem_set_unit]
  exact Iff.rfl

/-- Every row r of the output array is in the block of point r / 5000. -/
theorem cover (i : S50000x128.Idx) :
    ∃ t : Fin cfg1.N, (cfg1.win 1).flush t = true ∧ i ∈ ((cfg1.win 1).blk t).view.set := by
  have hi0 : (i 0).val < 50000 := (i 0).isLt
  have hi1 : (i 1).val < 128 := (i 1).isLt
  have hN : (i 0).val / 5000 < cfg1.N := lt_of_lt_of_eq (by omega : (i 0).val / 5000 < 10) N_1.symm
  obtain ⟨e0, e1, e2, e3⟩ := idx ⟨(i 0).val / 5000, hN⟩
  have e2' : win1_1.index ⟨(i 0).val / 5000, hN⟩ (0 : Fin 2) = (i 0).val / 5000 := e2
  refine ⟨⟨(i 0).val / 5000, hN⟩, flush1_1 _, ?_⟩
  rw [mem_blk]
  intro a
  match a with
  | ⟨0, _⟩ => show win1_1.index ⟨(i 0).val / 5000, hN⟩ (0 : Fin 2) * 5000 ≤ (i 0).val ∧ (i 0).val < win1_1.index ⟨(i 0).val / 5000, hN⟩ (0 : Fin 2) * 5000 + 5000; omega
  | ⟨1, _⟩ => show win1_1.index ⟨(i 0).val / 5000, hN⟩ (1 : Fin 2) * 128 ≤ (i 1).val ∧ (i 1).val < win1_1.index ⟨(i 0).val / 5000, hN⟩ (1 : Fin 2) * 128 + 128; omega

/-- After the region the output array holds the activation of the input array as the region found it. -/
theorem arr (c : Dev nD) :
    (dat1 V c).arrAt 1 cfg1.N = Cert.Gcn.act (F := Ideal) (V c main_v44) :=
  (dat1 V c).arrAt_eq_of_cover 1 _ (fun t _ => flushed_eq V c t) cover

end Cert.KernelIdeal.Region1

end
-- ==== Proof.Region2.lean ====
/-
  Region 2: the projection x · W written tile by tile is the whole product.

  Grid point t fetches rows 5000 t … 5000 t + 4999 of the features and the whole weight, and writes back the tile's
  product as rows 5000 t … of the output array. The ten tiles cover the 50000 rows, so after the region the output
  array holds the whole product of the two arrays as the region found them.
-/
import proofs.«101457_j58325655879922_1_alg».proof.Proof.ProjBlock
import proofs.«101457_j58325655879922_1_alg».proof.Proof.Gen.KernelIdeal.Frame
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the features' and the output's block row is the point, every other block index is 0. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value is the tile's product into a zero accumulator, of its two loaded blocks. -/
theorem pay_eq (x0 : Vec Ideal S5000x128 .f32) (x1 : Vec Ideal S128x128 .f32) (p : Fin 5000) (q : Fin 128) :
    k2_pay1 (F := Ideal) x0 x1 (ix2 p q)
      = matmul dot_S5000x128_S128x128_S5000x128_1_0_0_1_n_n none (truncf .bf16 x0 bitsLt_bf16_f32) (truncf .bf16 x1 bitsLt_bf16_f32)
          (constant S5000x128 .f32 0x00000000#32) (ix2 p q) := by
  show matmul (F := Ideal) dot_S5000x128_S128x128_S5000x128_1_0_0_1_n_n none (truncf .bf16 (shapeCast S5000x128 x0 shapeCasts_S5000x128_S5000x128) bitsLt_bf16_f32) (truncf .bf16 x1 bitsLt_bf16_f32) (constant S5000x128 .f32 0x00000000#32) (ix2 p q) = _
  rw [shapeCast_self]

/-- What point t writes back is block t of the whole product. -/
theorem flushed_eq (c : Dev nD) (t : Fin cfg2.N) :
    (dat2 V c).flushed 2 t
      = ((cfg2.win 2).blk t).view.read (Elt Ideal) (Cert.Gcn.proj (F := Ideal) (V c main_v45) (V c main_arg3)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx t
  have ht : t.val < 10 := lt_of_lt_of_eq t.isLt N_2
  funext j
  obtain ⟨p, q, rfl⟩ : ∃ (p : Fin 5000) (q : Fin 128), j = ix2 p q := ⟨j 0, j 1, eq_ix2 j⟩
  have hemb : ((cfg2.win 2).blk t).view.emb (ix2 p q) = ix2 (Cert.Gcn.rowAt t.val ht p) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  show k2_pay1 (iblk2 V c 0 t) (iblk2 V c 1 t) (ix2 p q)
    = Cert.Gcn.proj (F := Ideal) (V c main_v45) (V c main_arg3) (((cfg2.win 2).blk t).view.emb (ix2 p q))
  rw [hemb, pay_eq]
  refine Cert.Gcn.tile_eq_proj (V c main_v45) (V c main_arg3) _ _ t.val ht ?_ ?_ p q
  · intro p k
    show V c main_v45 (((cfg2.win 0).blk t).view.emb (ix2 p k)) = V c main_v45 (ix2 (Cert.Gcn.rowAt t.val ht p) k)
    refine congrArg _ ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k q
    show V c main_arg3 (((cfg2.win 1).blk t).view.emb (ix2 k q)) = V c main_arg3 (ix2 k q)
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every row r of the output array is in the block of point r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : (i 0).val / 5000 < cfg2.N := lt_of_lt_of_eq (by omega : (i 0).val / 5000 < 10) N_2.symm
  obtain ⟨e0, e1, e2, e3, e4, e5⟩ := idx ⟨(i 0).val / 5000, hN⟩
  have e4' : win2_2.index ⟨(i 0).val / 5000, hN⟩ (0 : Fin 2) = (i 0).val / 5000 := e4
  refine ⟨⟨(i 0).val / 5000, hN⟩, flush2_2 _, ?_⟩
  rw [mem_blk]
  intro a
  match a with
  | ⟨0, _⟩ => show win2_2.index ⟨(i 0).val / 5000, hN⟩ (0 : Fin 2) * 5000 ≤ (i 0).val ∧ (i 0).val < win2_2.index ⟨(i 0).val / 5000, hN⟩ (0 : Fin 2) * 5000 + 5000; omega
  | ⟨1, _⟩ => show win2_2.index ⟨(i 0).val / 5000, hN⟩ (1 : Fin 2) * 128 ≤ (i 1).val ∧ (i 1).val < win2_2.index ⟨(i 0).val / 5000, hN⟩ (1 : Fin 2) * 128 + 128; omega

/-- After the region the output array holds the whole product of the features and the weight as the region found them. -/
theorem arr (c : Dev nD) :
    (dat2 V c).arrAt 2 cfg2.N = Cert.Gcn.proj (F := Ideal) (V c main_v45) (V c main_arg3) :=
  (dat2 V c).arrAt_eq_of_cover 2 _ (fun t _ => flushed_eq V c t) cover

end Cert.KernelIdeal.Region2

end
-- ==== Proof.Region3.lean ====
/-
  Region 3: the activation 5 · tanh written tile by tile is the activation of the whole array.

  Grid point t fetches rows 5000 t … 5000 t + 4999 of its input and writes back their activation as the same rows of
  the output array. The ten tiles cover the 50000 rows, so after the region the output array holds the activation of the
  input array as the region found it.
-/
import proofs.«101457_j58325655879922_1_alg».proof.Proof.ActBlock
import proofs.«101457_j58325655879922_1_alg».proof.Proof.Gen.KernelIdeal.Frame
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's and the output's block row is the point, the block column is 0. -/
theorem idx : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- The body's stored value is 5 · tanh of its loaded block, entry by entry. -/
theorem pay_eq (x0 : Vec Ideal S5000x128 .f32) (p : Fin 5000) (q : Fin 128) :
    k3_pay1 (F := Ideal) x0 (ix2 p q)
      = mulf (tanh (shapeCast S5000x128 x0 shapeCasts_S5000x128_S5000x128)) (broadcast S5000x128 (Scalar.ofBits .f32 0x40A00000#32)) (ix2 p q) := by
  rfl

/-- What point t writes back is block t of the activation of the input array. -/
theorem flushed_eq (c : Dev nD) (t : Fin cfg3.N) :
    (dat3 V c).flushed 1 t
      = ((cfg3.win 1).blk t).view.read (Elt Ideal) (Cert.Gcn.act (F := Ideal) (V c main_v83)) := by
  show (cfg3.win 1).cut (grid3.coords t) ((dat3 V c).after 1 t) = _
  rw [after3_1]
  unfold out3_1
  rw [View.canon_unit_zero hz]
  simp only [View.ld_unit_zero (S := S5000x128) hz]
  obtain ⟨e0, e1, e2, e3⟩ := idx t
  have ht : t.val < 10 := lt_of_lt_of_eq t.isLt N_3
  funext j
  obtain ⟨p, q, rfl⟩ : ∃ (p : Fin 5000) (q : Fin 128), j = ix2 p q := ⟨j 0, j 1, eq_ix2 j⟩
  have hemb : ((cfg3.win 1).blk t).view.emb (ix2 p q) = ix2 (Cert.Gcn.rowAt t.val ht p) q := by
    funext a; apply Fin.ext
    match a with
    | ⟨0, _⟩ => show win3_1.index t (0 : Fin 2) * 5000 + 1 * p.val = t.val * 5000 + p.val; omega
    | ⟨1, _⟩ => show win3_1.index t (1 : Fin 2) * 128 + 1 * q.val = q.val; omega
  show k3_pay1 (iblk3 V c 0 t) (ix2 p q)
    = Cert.Gcn.act (F := Ideal) (V c main_v83) (((cfg3.win 1).blk t).view.emb (ix2 p q))
  rw [hemb, pay_eq]
  refine Cert.Gcn.tile_eq_act (V c main_v83) _ t.val ht ?_ shapeCasts_S5000x128_S5000x128 p q
  intro p k
  show V c main_v83 (((cfg3.win 0).blk t).view.emb (ix2 p k)) = V c main_v83 (ix2 (Cert.Gcn.rowAt t.val ht p) k)
  refine congrArg _ ?_
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

/-- An index of the output array is in point t's block iff each coordinate is in the block's range on its axis. -/
theorem mem_blk (t : Fin cfg3.N) (i : S50000x128.Idx) :
    i ∈ ((cfg3.win 1).blk t).view.set ↔ ∀ a : Fin 2, win3_1.index t a * S5000x128.size a ≤ (i a).val ∧ (i a).val < win3_1.index t a * S5000x128.size a + S5000x128.size a := by
  show i ∈ ((View.whole main_v84).slice (win3_1.rect t)).set ↔ _
  rw [View.set_slice_whole, Rect.mem_set_unit]
  exact Iff.rfl

/-- Every row r of the output array is in the block of point r / 5000. -/
theorem cover (i : S50000x128.Idx) :
    ∃ t : Fin cfg3.N, (cfg3.win 1).flush t = true ∧ i ∈ ((cfg3.win 1).blk t).view.set := by
  have hi0 : (i 0).val < 50000 := (i 0).isLt
  have hi1 : (i 1).val < 128 := (i 1).isLt
  have hN : (i 0).val / 5000 < cfg3.N := lt_of_lt_of_eq (by omega : (i 0).val / 5000 < 10) N_3.symm
  obtain ⟨e0, e1, e2, e3⟩ := idx ⟨(i 0).val / 5000, hN⟩
  have e2' : win3_1.index ⟨(i 0).val / 5000, hN⟩ (0 : Fin 2) = (i 0).val / 5000 := e2
  refine ⟨⟨(i 0).val / 5000, hN⟩, flush3_1 _, ?_⟩
  rw [mem_blk]
  intro a
  match a with
  | ⟨0, _⟩ => show win3_1.index ⟨(i 0).val / 5000, hN⟩ (0 : Fin 2) * 5000 ≤ (i 0).val ∧ (i 0).val < win3_1.index ⟨(i 0).val / 5000, hN⟩ (0 : Fin 2) * 5000 + 5000; omega
  | ⟨1, _⟩ => show win3_1.index ⟨(i 0).val / 5000, hN⟩ (1 : Fin 2) * 128 ≤ (i 1).val ∧ (i 1).val < win3_1.index ⟨(i 0).val / 5000, hN⟩ (1 : Fin 2) * 128 + 128; omega

/-- After the region the output array holds the activation of the input array as the region found it. -/
theorem arr (c : Dev nD) :
    (dat3 V c).arrAt 1 cfg3.N = Cert.Gcn.act (F := Ideal) (V c main_v83) :=
  (dat3 V c).arrAt_eq_of_cover 1 _ (fun t _ => flushed_eq V c t) cover

end Cert.KernelIdeal.Region3

end
-- ==== Proof.Region4.lean ====
/-
  Region 4: the projection x · W written tile by tile is the whole product.

  Grid point t fetches rows 5000 t … 5000 t + 4999 of the features and the whole weight, and writes back the tile's
  product as rows 5000 t … of the output array. The ten tiles cover the 50000 rows, so after the region the output
  array holds the whole product of the two arrays as the region found them.
-/
import proofs.«101457_j58325655879922_1_alg».proof.Proof.ProjBlock
import proofs.«101457_j58325655879922_1_alg».proof.Proof.Gen.KernelIdeal.Frame
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the features' and the output's block row is the point, every other block index is 0. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's stored value is the tile's product into a zero accumulator, of its two loaded blocks. -/
theorem pay_eq (x0 : Vec Ideal S5000x128 .f32) (x1 : Vec Ideal S128x128 .f32) (p : Fin 5000) (q : Fin 128) :
    k4_pay1 (F := Ideal) x0 x1 (ix2 p q)
      = matmul dot_S5000x128_S128x128_S5000x128_1_0_0_1_n_n none (truncf .bf16 x0 bitsLt_bf16_f32) (truncf .bf16 x1 bitsLt_bf16_f32)
          (constant S5000x128 .f32 0x00000000#32) (ix2 p q) := by
  show matmul (F := Ideal) dot_S5000x128_S128x128_S5000x128_1_0_0_1_n_n none (truncf .bf16 (shapeCast S5000x128 x0 shapeCasts_S5000x128_S5000x128) bitsLt_bf16_f32) (truncf .bf16 x1 bitsLt_bf16_f32) (constant S5000x128 .f32 0x00000000#32) (ix2 p q) = _
  rw [shapeCast_self]

/-- What point t writes back is block t of the whole product. -/
theorem flushed_eq (c : Dev nD) (t : Fin cfg4.N) :
    (dat4 V c).flushed 2 t
      = ((cfg4.win 2).blk t).view.read (Elt Ideal) (Cert.Gcn.proj (F := Ideal) (V c main_v84) (V c main_arg4)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx t
  have ht : t.val < 10 := lt_of_lt_of_eq t.isLt N_4
  funext j
  obtain ⟨p, q, rfl⟩ : ∃ (p : Fin 5000) (q : Fin 128), j = ix2 p q := ⟨j 0, j 1, eq_ix2 j⟩
  have hemb : ((cfg4.win 2).blk t).view.emb (ix2 p q) = ix2 (Cert.Gcn.rowAt t.val ht p) q := by
    funext a; apply Fin.ext
    match a with
    | ⟨0, _⟩ => show win4_2.index t (0 : Fin 2) * 5000 + 1 * p.val = t.val * 5000 + p.val; omega
    | ⟨1, _⟩ => show win4_2.index t (1 : Fin 2) * 128 + 1 * q.val = q.val; omega
  show k4_pay1 (iblk4 V c 0 t) (iblk4 V c 1 t) (ix2 p q)
    = Cert.Gcn.proj (F := Ideal) (V c main_v84) (V c main_arg4) (((cfg4.win 2).blk t).view.emb (ix2 p q))
  rw [hemb, pay_eq]
  refine Cert.Gcn.tile_eq_proj (V c main_v84) (V c main_arg4) _ _ t.val ht ?_ ?_ p q
  · intro p k
    show V c main_v84 (((cfg4.win 0).blk t).view.emb (ix2 p k)) = V c main_v84 (ix2 (Cert.Gcn.rowAt t.val ht p) k)
    refine congrArg _ ?_
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  · intro k q
    show V c main_arg4 (((cfg4.win 1).blk t).view.emb (ix2 k q)) = V c main_arg4 (ix2 k q)
    refine congrArg _ ?_
    funext a; apply Fin.ext
    match a with
    | ⟨0, _⟩ => show win4_1.index t (0 : Fin 2) * 128 + 1 * k.val = k.val; omega
    | ⟨1, _⟩ => show win4_1.index t (1 : Fin 2) * 128 + 1 * q.val = q.val; omega

/-- An index of the output array is in point t's block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v85).slice (win4_2.rect t)).set ↔ _
  rw [View.set_slice_whole, Rect.mem_set_unit]
  exact Iff.rfl

/-- Every row r of the output array is in the block of point r / 5000. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : (i 0).val / 5000 < cfg4.N := lt_of_lt_of_eq (by omega : (i 0).val / 5000 < 10) N_4.symm
  obtain ⟨e0, e1, e2, e3, e4, e5⟩ := idx ⟨(i 0).val / 5000, hN⟩
  have e4' : win4_2.index ⟨(i 0).val / 5000, hN⟩ (0 : Fin 2) = (i 0).val / 5000 := e4
  refine ⟨⟨(i 0).val / 5000, hN⟩, flush4_2 _, ?_⟩
  rw [mem_blk]
  intro a
  match a with
  | ⟨0, _⟩ => show win4_2.index ⟨(i 0).val / 5000, hN⟩ (0 : Fin 2) * 5000 ≤ (i 0).val ∧ (i 0).val < win4_2.index ⟨(i 0).val / 5000, hN⟩ (0 : Fin 2) * 5000 + 5000; omega
  | ⟨1, _⟩ => show win4_2.index ⟨(i 0).val / 5000, hN⟩ (1 : Fin 2) * 128 ≤ (i 1).val ∧ (i 1).val < win4_2.index ⟨(i 0).val / 5000, hN⟩ (1 : Fin 2) * 128 + 128; omega

/-- After the region the output array holds the whole product of the features and the weight as the region found them. -/
theorem arr (c : Dev nD) :
    (dat4 V c).arrAt 2 cfg4.N = Cert.Gcn.proj (F := Ideal) (V c main_v84) (V c main_arg4) :=
  (dat4 V c).arrAt_eq_of_cover 2 _ (fun t _ => flushed_eq V c t) cover

end Cert.KernelIdeal.Region4

end
-- ==== Proof.HostStretches.lean ====
/-
  The host operations around the kernel regions, read as functions of the buffers they start from.

  Before the first region the edge list is cut into its row and column ids, each followed by the self-loops. After
  each projection the host applies the graph convolution to the projected features: the degree of every node by a
  scatter-add of ones, its inverse square root where positive, the weight of every pair by two gathers, the gathered
  and weighted rows of the projected features, and their scatter-add into the rows. Each such stretch writes fresh
  buffers only, so the row ids, the column ids and the weights of later layers are found as they were.
-/
import proofs.«101457_j58325655879922_1_alg».proof.Proof.Layer
import proofs.«101457_j58325655879922_1_alg».proof.Proof.Gen.KernelIdeal.Launch
import Idealize.ShloMosaic.Lib.StableHlo.Run

set_option maxRecDepth 16384

noncomputable section

namespace Cert.KernelIdeal.HostOps

open Cert.KernelIdeal Cert.KernelIdeal.Gen
open Idealize.ShloMosaic Idealize.ShloMosaic.TcCoe Idealize.SL.Sem Idealize.ShloMosaic.StableHlo

variable {F : FTy → Type} [FloatOps F] (B : Valuation τ sig (Elt F))

/-! ## Before the first region: the row and column ids -/

theorem rows0 : after hostOps0 B (Proc.devRef .tc main_v3) = Cert.Gcn.rows (F := F) (B (Proc.devRef .tc main_arg1)) := by
  after_results
  rfl

theorem cols0 : after hostOps0 B (Proc.devRef .tc main_v6) = Cert.Gcn.cols (F := F) (B (Proc.devRef .tc main_arg1)) := by
  after_results
  rfl

theorem kept0_arg0 : after hostOps0 B (Proc.devRef .tc main_arg0) = B (Proc.devRef .tc main_arg0) := by
  after_results_simp

theorem kept0_arg2 : after hostOps0 B (Proc.devRef .tc main_arg2) = B (Proc.devRef .tc main_arg2) := by
  after_results_simp

theorem kept0_arg3 : after hostOps0 B (Proc.devRef .tc main_arg3) = B (Proc.devRef .tc main_arg3) := by
  after_results_simp

theorem kept0_arg4 : after hostOps0 B (Proc.devRef .tc main_arg4) = B (Proc.devRef .tc main_arg4) := by
  after_results_simp

/-! ## After the first projection: the first convolution -/

set_option maxHeartbeats 4000000 in
theorem layer1 : after hostOps1_2 (after hostOps1_1 (after hostOps1 B)) (Proc.devRef .tc main_v44)
    = Cert.Gcn.layer (F := F) (B (Proc.devRef .tc main_v3)) (B (Proc.devRef .tc main_v6)) (B (Proc.devRef .tc main_v7)) := by
  after_results_simp
  rfl

theorem kept1_v3 : after hostOps1_2 (after hostOps1_1 (after hostOps1 B)) (Proc.devRef .tc main_v3) = B (Proc.devRef .tc main_v3) := by
  after_results_simp

theorem kept1_v6 : after hostOps1_2 (after hostOps1_1 (after hostOps1 B)) (Proc.devRef .tc main_v6) = B (Proc.devRef .tc main_v6) := by
  after_results_simp

theorem kept1_arg3 : after hostOps1_2 (after hostOps1_1 (after hostOps1 B)) (Proc.devRef .tc main_arg3) = B (Proc.devRef .tc main_arg3) := by
  after_results_simp

theorem kept1_arg4 : after hostOps1_2 (after hostOps1_1 (after hostOps1 B)) (Proc.devRef .tc main_arg4) = B (Proc.devRef .tc main_arg4) := by
  after_results_simp

/-! ## After the second projection: the second convolution -/

set_option maxHeartbeats 4000000 in
theorem layer2 : after hostOps3_2 (after hostOps3_1 (after hostOps3 B)) (Proc.devRef .tc main_v83)
    = Cert.Gcn.layer (F := F) (B (Proc.devRef .tc main_v3)) (B (Proc.devRef .tc main_v6)) (B (Proc.devRef .tc main_v46)) := by
  after_results_simp
  rfl

theorem kept3_v3 : after hostOps3_2 (after hostOps3_1 (after hostOps3 B)) (Proc.devRef .tc main_v3) = B (Proc.devRef .tc main_v3) := by
  after_results_simp

theorem kept3_v6 : after hostOps3_2 (after hostOps3_1 (after hostOps3 B)) (Proc.devRef .tc main_v6) = B (Proc.devRef .tc main_v6) := by
  after_results_simp

theorem kept3_arg4 : after hostOps3_2 (after hostOps3_1 (after hostOps3 B)) (Proc.devRef .tc main_arg4) = B (Proc.devRef .tc main_arg4) := by
  after_results_simp

/-! ## After the third projection: the third convolution, the program's result -/

set_option maxHeartbeats 4000000 in
theorem layer3 : after hostOps5_2 (after hostOps5_1 (after hostOps5 B)) (Proc.devRef .tc main_v122)
    = Cert.Gcn.layer (F := F) (B (Proc.devRef .tc main_v3)) (B (Proc.devRef .tc main_v6)) (B (Proc.devRef .tc main_v85)) := by
  after_results_simp
  rfl

end Cert.KernelIdeal.HostOps

end
-- ==== Proof.KernelRun.lean ====
/-
  The idealized kernel program's run with its result named.

  The program is fifteen segments: stretches of host operations and five kernel regions. The contents of every
  buffer at each segment boundary are a fold from the launch memory: a host stretch applies its operations, a
  region replaces its output array by what its write-backs leave and keeps every other buffer. Every weakly fair
  execution terminates with every unscoped buffer at the last boundary's contents; in particular the result buffer
  holds the fold's value there, and the five argument arrays are as launched.
-/
import proofs.«101457_j58325655879922_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v122) = W15 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v122 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c)⟩)

end Cert.KernelIdeal.RunValue

end
-- ==== Proof.KernelNet.lean ====
/-
  The idealized kernel program's result is the three-layer network of its arguments.

  The buffer contents are followed from the launch to the return, boundary by boundary: the row and column ids and the
  weights of later layers are carried unchanged through every stretch and region; each projection region leaves the
  product of the features and its weight; each activation region leaves 5 · tanh of its input; each host stretch after
  a projection leaves the graph convolution of the projected features. Composed, the result buffer holds
  layer(proj(act(layer(proj(act(layer(proj(x, W1))), W2))), W3)).
-/
import proofs.«101457_j58325655879922_1_alg».proof.Proof.Region0
import proofs.«101457_j58325655879922_1_alg».proof.Proof.Region1
import proofs.«101457_j58325655879922_1_alg».proof.Proof.Region2
import proofs.«101457_j58325655879922_1_alg».proof.Proof.Region3
import proofs.«101457_j58325655879922_1_alg».proof.Proof.Region4
import proofs.«101457_j58325655879922_1_alg».proof.Proof.HostStretches
import proofs.«101457_j58325655879922_1_alg».proof.Proof.KernelRun
import proofs.«101457_j58325655879922_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

/-- Equal ids and equal projected features give equal convolutions. -/
theorem layer_eq {r r' cl cl' : (⟨Cert.ReferenceIdeal.S850000, .i32⟩ : BufTy).Contents (Elt Ideal)}
    {xw xw' : (⟨Cert.ReferenceIdeal.S50000x128, .f32⟩ : BufTy).Contents (Elt Ideal)} (h1 : r = r') (h2 : cl = cl') (h3 : xw = xw') :
    Cert.Gcn.layer (F := Ideal) r cl xw = Cert.Gcn.layer (F := Ideal) r' cl' xw' := by rw [h1, h2, h3]

/-- Equal features and equal weights give equal projections. -/
theorem proj_eq {x x' : (⟨Cert.ReferenceIdeal.S50000x128, .f32⟩ : BufTy).Contents (Elt Ideal)}
    {w w' : (⟨Cert.ReferenceIdeal.S128x128, .f32⟩ : BufTy).Contents (Elt Ideal)} (h1 : x = x') (h2 : w = w') :
    Cert.Gcn.proj (F := Ideal) x w = Cert.Gcn.proj (F := Ideal) x' w' := by rw [h1, h2]

variable (m : (ℓ : Loc nD τ sig) → Buf (Elt Ideal) ℓ) (ρ : Dev nD → PrngReg) (c : Dev nD)

/-! ## Region 0's entry: the ids, and the arguments as launched -/

theorem s1_v3 : W1 m ρ c (Proc.devRef .tc main_v3) = Cert.Gcn.rows (F := Ideal) (m ((c : Thread nD τ).loc main_arg1)) := HostOps.rows0 (W0 m ρ c)
theorem s1_v6 : W1 m ρ c (Proc.devRef .tc main_v6) = Cert.Gcn.cols (F := Ideal) (m ((c : Thread nD τ).loc main_arg1)) := HostOps.cols0 (W0 m ρ c)
theorem s1_arg0 : W1 m ρ c (Proc.devRef .tc main_arg0) = (m ((c : Thread nD τ).loc main_arg0)) := HostOps.kept0_arg0 (W0 m ρ c)
theorem s1_arg2 : W1 m ρ c (Proc.devRef .tc main_arg2) = (m ((c : Thread nD τ).loc main_arg2)) := HostOps.kept0_arg2 (W0 m ρ c)
theorem s1_arg3 : W1 m ρ c (Proc.devRef .tc main_arg3) = (m ((c : Thread nD τ).loc main_arg3)) := HostOps.kept0_arg3 (W0 m ρ c)
theorem s1_arg4 : W1 m ρ c (Proc.devRef .tc main_arg4) = (m ((c : Thread nD τ).loc main_arg4)) := HostOps.kept0_arg4 (W0 m ρ c)

/-! ## Region 0's exit: the first projection -/

theorem s2_xw : W2 m ρ c (Proc.devRef .tc main_v7) = Cert.Gcn.proj (F := Ideal) (m ((c : Thread nD τ).loc main_arg0)) (m ((c : Thread nD τ).loc main_arg2)) :=
  (W2_arr m ρ c 2).trans ((Region0.arr (V1 m ρ) c).trans (proj_eq (s1_arg0 m ρ c) (s1_arg2 m ρ c)))
theorem s2_v3 : W2 m ρ c (Proc.devRef .tc main_v3) = Cert.Gcn.rows (F := Ideal) (m ((c : Thread nD τ).loc main_arg1)) := (W2_of_ne m ρ c main_v3 (by decide)).trans (s1_v3 m ρ c)
theorem s2_v6 : W2 m ρ c (Proc.devRef .tc main_v6) = Cert.Gcn.cols (F := Ideal) (m ((c : Thread nD τ).loc main_arg1)) := (W2_of_ne m ρ c main_v6 (by decide)).trans (s1_v6 m ρ c)
theorem s2_arg3 : W2 m ρ c (Proc.devRef .tc main_arg3) = (m ((c : Thread nD τ).loc main_arg3)) := (W2_of_ne m ρ c main_arg3 (by decide)).trans (s1_arg3 m ρ c)
theorem s2_arg4 : W2 m ρ c (Proc.devRef .tc main_arg4) = (m ((c : Thread nD τ).loc main_arg4)) := (W2_of_ne m ρ c main_arg4 (by decide)).trans (s1_arg4 m ρ c)

/-! ## Region 1's entry: the first convolution -/

theorem s5_h : W5 m ρ c (Proc.devRef .tc main_v44) = Cert.Gcn.hidden1 (F := Ideal) (m ((c : Thread nD τ).loc main_arg0)) (m ((c : Thread nD τ).loc main_arg1)) (m ((c : Thread nD τ).loc main_arg2)) :=
  (HostOps.layer1 (W2 m ρ c)).trans (layer_eq (s2_v3 m ρ c) (s2_v6 m ρ c) (s2_xw m ρ c))
theorem s5_v3 : W5 m ρ c (Proc.devRef .tc main_v3) = Cert.Gcn.rows (F := Ideal) (m ((c : Thread nD τ).loc main_arg1)) := (HostOps.kept1_v3 (W2 m ρ c)).trans (s2_v3 m ρ c)
theorem s5_v6 : W5 m ρ c (Proc.devRef .tc main_v6) = Cert.Gcn.cols (F := Ideal) (m ((c : Thread nD τ).loc main_arg1)) := (HostOps.kept1_v6 (W2 m ρ c)).trans (s2_v6 m ρ c)
theorem s5_arg3 : W5 m ρ c (Proc.devRef .tc main_arg3) = (m ((c : Thread nD τ).loc main_arg3)) := (HostOps.kept1_arg3 (W2 m ρ c)).trans (s2_arg3 m ρ c)
theorem s5_arg4 : W5 m ρ c (Proc.devRef .tc main_arg4) = (m ((c : Thread nD τ).loc main_arg4)) := (HostOps.kept1_arg4 (W2 m ρ c)).trans (s2_arg4 m ρ c)

/-! ## Region 1's exit: the first activation -/

theorem s6_a : W6 m ρ c (Proc.devRef .tc main_v45) = Cert.Gcn.act (F := Ideal) (Cert.Gcn.hidden1 (F := Ideal) (m ((c : Thread nD τ).loc main_arg0)) (m ((c : Thread nD τ).loc main_arg1)) (m ((c : Thread nD τ).loc main_arg2))) :=
  (W6_arr m ρ c 1).trans ((Region1.arr (V5 m ρ) c).trans (congrArg (Cert.Gcn.act (F := Ideal)) (s5_h m ρ c)))
theorem s6_v3 : W6 m ρ c (Proc.devRef .tc main_v3) = Cert.Gcn.rows (F := Ideal) (m ((c : Thread nD τ).loc main_arg1)) := (W6_of_ne m ρ c main_v3 (by decide)).trans (s5_v3 m ρ c)
theorem s6_v6 : W6 m ρ c (Proc.devRef .tc main_v6) = Cert.Gcn.cols (F := Ideal) (m ((c : Thread nD τ).loc main_arg1)) := (W6_of_ne m ρ c main_v6 (by decide)).trans (s5_v6 m ρ c)
theorem s6_arg3 : W6 m ρ c (Proc.devRef .tc main_arg3) = (m ((c : Thread nD τ).loc main_arg3)) := (W6_of_ne m ρ c main_arg3 (by decide)).trans (s5_arg3 m ρ c)
theorem s6_arg4 : W6 m ρ c (Proc.devRef .tc main_arg4) = (m ((c : Thread nD τ).loc main_arg4)) := (W6_of_ne m ρ c main_arg4 (by decide)).trans (s5_arg4 m ρ c)

/-! ## Region 2's exit: the second projection -/

theorem s7_xw : W7 m ρ c (Proc.devRef .tc main_v46) = Cert.Gcn.proj (F := Ideal) (Cert.Gcn.act (F := Ideal) (Cert.Gcn.hidden1 (F := Ideal) (m ((c : Thread nD τ).loc main_arg0)) (m ((c : Thread nD τ).loc main_arg1)) (m ((c : Thread nD τ).loc main_arg2)))) (m ((c : Thread nD τ).loc main_arg3)) :=
  (W7_arr m ρ c 2).trans ((Region2.arr (V6 m ρ) c).trans (proj_eq (s6_a m ρ c) (s6_arg3 m ρ c)))
theorem s7_v3 : W7 m ρ c (Proc.devRef .tc main_v3) = Cert.Gcn.rows (F := Ideal) (m ((c : Thread nD τ).loc main_arg1)) := (W7_of_ne m ρ c main_v3 (by decide)).trans (s6_v3 m ρ c)
theorem s7_v6 : W7 m ρ c (Proc.devRef .tc main_v6) = Cert.Gcn.cols (F := Ideal) (m ((c : Thread nD τ).loc main_arg1)) := (W7_of_ne m ρ c main_v6 (by decide)).trans (s6_v6 m ρ c)
theorem s7_arg4 : W7 m ρ c (Proc.devRef .tc main_arg4) = (m ((c : Thread nD τ).loc main_arg4)) := (W7_of_ne m ρ c main_arg4 (by decide)).trans (s6_arg4 m ρ c)

/-! ## Region 3's entry: the second convolution -/

theorem s10_h : W10 m ρ c (Proc.devRef .tc main_v83) = Cert.Gcn.hidden2 (F := Ideal) (m ((c : Thread nD τ).loc main_arg0)) (m ((c : Thread nD τ).loc main_arg1)) (m ((c : Thread nD τ).loc main_arg2)) (m ((c : Thread nD τ).loc main_arg3)) :=
  (HostOps.layer2 (W7 m ρ c)).trans (layer_eq (s7_v3 m ρ c) (s7_v6 m ρ c) (s7_xw m ρ c))
theorem s10_v3 : W10 m ρ c (Proc.devRef .tc main_v3) = Cert.Gcn.rows (F := Ideal) (m ((c : Thread nD τ).loc main_arg1)) := (HostOps.kept3_v3 (W7 m ρ c)).trans (s7_v3 m ρ c)
theorem s10_v6 : W10 m ρ c (Proc.devRef .tc main_v6) = Cert.Gcn.cols (F := Ideal) (m ((c : Thread nD τ).loc main_arg1)) := (HostOps.kept3_v6 (W7 m ρ c)).trans (s7_v6 m ρ c)
theorem s10_arg4 : W10 m ρ c (Proc.devRef .tc main_arg4) = (m ((c : Thread nD τ).loc main_arg4)) := (HostOps.kept3_arg4 (W7 m ρ c)).trans (s7_arg4 m ρ c)

/-! ## Region 3's exit: the second activation -/

theorem s11_a : W11 m ρ c (Proc.devRef .tc main_v84) = Cert.Gcn.act (F := Ideal) (Cert.Gcn.hidden2 (F := Ideal) (m ((c : Thread nD τ).loc main_arg0)) (m ((c : Thread nD τ).loc main_arg1)) (m ((c : Thread nD τ).loc main_arg2)) (m ((c : Thread nD τ).loc main_arg3))) :=
  (W11_arr m ρ c 1).trans ((Region3.arr (V10 m ρ) c).trans (congrArg (Cert.Gcn.act (F := Ideal)) (s10_h m ρ c)))
theorem s11_v3 : W11 m ρ c (Proc.devRef .tc main_v3) = Cert.Gcn.rows (F := Ideal) (m ((c : Thread nD τ).loc main_arg1)) := (W11_of_ne m ρ c main_v3 (by decide)).trans (s10_v3 m ρ c)
theorem s11_v6 : W11 m ρ c (Proc.devRef .tc main_v6) = Cert.Gcn.cols (F := Ideal) (m ((c : Thread nD τ).loc main_arg1)) := (W11_of_ne m ρ c main_v6 (by decide)).trans (s10_v6 m ρ c)
theorem s11_arg4 : W11 m ρ c (Proc.devRef .tc main_arg4) = (m ((c : Thread nD τ).loc main_arg4)) := (W11_of_ne m ρ c main_arg4 (by decide)).trans (s10_arg4 m ρ c)

/-! ## Region 4's exit: the third projection -/

theorem s12_xw : W12 m ρ c (Proc.devRef .tc main_v85) = Cert.Gcn.proj (F := Ideal) (Cert.Gcn.act (F := Ideal) (Cert.Gcn.hidden2 (F := Ideal) (m ((c : Thread nD τ).loc main_arg0)) (m ((c : Thread nD τ).loc main_arg1)) (m ((c : Thread nD τ).loc main_arg2)) (m ((c : Thread nD τ).loc main_arg3)))) (m ((c : Thread nD τ).loc main_arg4)) :=
  (W12_arr m ρ c 2).trans ((Region4.arr (V11 m ρ) c).trans (proj_eq (s11_a m ρ c) (s11_arg4 m ρ c)))
theorem s12_v3 : W12 m ρ c (Proc.devRef .tc main_v3) = Cert.Gcn.rows (F := Ideal) (m ((c : Thread nD τ).loc main_arg1)) := (W12_of_ne m ρ c main_v3 (by decide)).trans (s11_v3 m ρ c)
theorem s12_v6 : W12 m ρ c (Proc.devRef .tc main_v6) = Cert.Gcn.cols (F := Ideal) (m ((c : Thread nD τ).loc main_arg1)) := (W12_of_ne m ρ c main_v6 (by decide)).trans (s11_v6 m ρ c)

/-! ## The return: the third convolution -/

/-- The result buffer at the last boundary holds the network of the arguments as launched. -/
theorem result : W15 m ρ c (Proc.devRef .tc main_v122) = Cert.Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (HostOps.layer3 (W12 m ρ c)).trans (layer_eq (s12_v3 m ρ c) (s12_v6 m ρ c) (s12_xw m ρ c))

/-- Every weakly fair execution of the idealized kernel program terminates with the result buffer at the network of the
    arguments as launched, and the arguments unchanged. -/
theorem run_net (ρ : Dev nD → PrngReg) :
    θ_run (defs (F := Ideal)) (onTc (τ := τ) (main (F := Ideal))) ⟨m, fun _ => 0, ρ⟩ (fun r => ∀ c : Dev nD,
      r.2.mem ((c.tc : Thread nD τ).loc main_v122) = Cert.Gcn.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (Cert.KernelIdeal.RunValue.run (F := Ideal) m ρ)

end Cert.KernelIdeal.Net

end
-- ==== Proof.RefNet.lean ====
/-
  The reference program's result is the three-layer network of its arguments.

  The reference's run ends with its result buffer at the composition of its host operations applied to the launch
  contents of the arguments. That composition is the network: the same projections, convolutions and activations,
  written out.
-/
import proofs.«101457_j58325655879922_1_alg».proof.Proof.RefRun
import proofs.«101457_j58325655879922_1_alg».proof.Proof.Layer

set_option maxRecDepth 16384

noncomputable section

namespace Cert.ReferenceIdeal.RefNet

open Cert.ReferenceIdeal Cert.ReferenceIdeal.Gen Idealize.ShloMosaic Idealize.ShloMosaic.TcCoe Idealize.SL.Sem

variable {F : FTy → Type} [FloatOps F]

set_option maxHeartbeats 4000000 in
/-- The composed term of the reference's 171 operations is the network of the arguments' launch contents. -/
theorem res_eq (m : (ℓ : Loc nD τ sig) → Buf (Elt F) ℓ) (c : Dev nD) :
    Cert.ReferenceIdeal.ValueP.res_main_v126 m c
      = Cert.Gcn.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.ReferenceIdeal.RefNet

end
-- ==== Proof.lean ====
/-
  A three-layer graph convolution network: the tiled kernel program against the plain reference.

  Both programs compute layer(proj(act(layer(proj(act(layer(proj(x, W1))), W2))), W3)) over the same 850000
  (row, col) pairs (800000 edges and 50000 self-loops): proj is a product with a [128, 128] weight, layer the
  normalised neighbourhood sum Σ_{e : row e = n} dinv(row e) · dinv(col e) · xw(col e, :), act is 5 · tanh. The host
  operations of layer are the same in both programs. The kernel program computes each proj in ten row tiles of 5000,
  through a change of float format that is the identity on the extended reals and into a zero accumulator, and each
  act in ten row tiles; a row tile of a product, or of an entrywise function, is the product, or the function, of the
  row tile, so on the extended reals the two results are equal entry by entry. No sum is regrouped and no law of
  arithmetic beyond this is used: the precondition (finite inputs) is never opened.

  The three frames: the two kernel programs' are the generated frame certificates; the reference's is its run with the
  result dropped. The idealization rewrote no operation, so there is nothing to preserve.
-/
import proofs.«101457_j58325655879922_1_alg».proof.Defs
import proofs.«101457_j58325655879922_1_alg».proof.Proof.Gen.Kernel
import proofs.«101457_j58325655879922_1_alg».proof.Proof.Gen.Kernel.Skeleton
import proofs.«101457_j58325655879922_1_alg».proof.Proof.Gen.Kernel.Launch
import proofs.«101457_j58325655879922_1_alg».proof.Proof.Gen.Kernel.Points
import proofs.«101457_j58325655879922_1_alg».proof.Proof.Gen.Kernel.Frame
import proofs.«101457_j58325655879922_1_alg».proof.Proof.Gen.KernelIdeal
import proofs.«101457_j58325655879922_1_alg».proof.Proof.Gen.KernelIdeal.Skeleton
import proofs.«101457_j58325655879922_1_alg».proof.Proof.Gen.KernelIdeal.Launch
import proofs.«101457_j58325655879922_1_alg».proof.Proof.Gen.KernelIdeal.Points
import proofs.«101457_j58325655879922_1_alg».proof.Proof.Gen.KernelIdeal.Frame
import proofs.«101457_j58325655879922_1_alg».proof.Proof.Gen.ReferenceIdeal
import proofs.«101457_j58325655879922_1_alg».proof.Proof.Gen.Pre_finite_inputs
import proofs.«101457_j58325655879922_1_alg».proof.Proof.KernelNet
import proofs.«101457_j58325655879922_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at the network of the arguments, which agree. -/
theorem algebraic : Cert.algebraic_KernelIdeal_ReferenceIdeal := by
  intro m ρ m' ρ' _ hagree
  refine ⟨_, Cert.KernelIdeal.Net.run_net m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefNet.res_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
